-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256 : Shape := ⟨3, ![16, 512, 256]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel

variable [Facts]

def fn {F : FTy → Type} [FloatOps F] (main_arg0 : FVec F S16x512x256 .f32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  main_v3
-- ==== Kernel.lean ====
abbrev S16x512x256 : Shape := ⟨3, ![16, 512, 256]⟩
abbrev S8192x256 : Shape := ⟨2, ![8192, 256]⟩
abbrev S1x1 : Shape := ⟨2, ![1, 1]⟩
abbrev S4096x256 : Shape := ⟨2, ![4096, 256]⟩
abbrev S1x256 : Shape := ⟨2, ![1, 256]⟩
abbrev S256 : Shape := ⟨1, ![256]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S16x512x256, .f32⟩
  | .hbm, ⟨1, _⟩ => ⟨S8192x256, .f32⟩
  | .hbm, ⟨2, _⟩ => ⟨S1x1, .f32⟩
  | .hbm, ⟨3, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S1x1, .f32⟩
  | .local _ .vmem, ⟨3, _⟩ => ⟨S1x256, .f32⟩
  | .local _ .vmem, ⟨4, _⟩ => ⟨S1x1, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v22 : BitVec 1 := Scalar.cmpi .eq arg0 c1_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S16x512x256_S8192x256 : S16x512x256.ShapeCasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S256 : S4096x256.Reduces [0] S256
  shapeCasts_S256_S1x256 : S256.ShapeCasts S1x256
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  reduces_S1x256_S1 : S1x256.Reduces [1] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S8192x256.size a
  hwx0_0 : ∀ i : grid0.Coords, EltTy.bits .f32 = 32 ∨ (Rect.block (s := S8192x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x512x256 : Shape := ⟨3, ![16, 512, 256]⟩
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x512x256, .f32⟩
  | .hbm, ⟨1, _⟩ => ⟨S8192x256, .f32⟩
  | .hbm, ⟨2, _⟩ => ⟨S256x8192, .f32⟩
  | .hbm, ⟨3, _⟩ => ⟨S8192x8192, .f32⟩
  | .hbm, ⟨4, _⟩ => ⟨S_, .f32⟩
  | .hbm, ⟨5, _⟩ => ⟨S_, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]

class Facts₀ : Prop where
  shapeCasts_S16x512x256_S8192x256 : S16x512x256.ShapeCasts S8192x256
  transposes_S8192x256_S256x8192_1_0 : S8192x256.Transposes [1, 0] S256x8192
  reducesTo_S8192x8192_S_d0_1 : S8192x8192.ReducesTo [0, 1] S_
  h_S_ : 0 < S_.numel
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.FoundPieces.lean ====
/-
  What one step of the kernel leaves behind, as values.

  The kernel visits the 8192 rows of the matrix in two blocks of 4096 rows. It carries two accumulators between the
  two steps: a row vector of 256 column sums and a single sum of squares. At the first step it clears both and then
  adds the first block's contributions; at the second it adds the second block's contributions and finishes: from the
  two accumulators it forms the result and stores it. This module reads the stores each step makes back as the
  arithmetic they hold: the new column sums are `k0_pay4 block old` (the old sums plus the block's column sums), the
  new sum of squares is `k0_pay5 block old` (the old sum plus the block's sum of squares), the cleared values are
  `k0_pay1` and `k0_pay2` (all zeros), and the result stored at the last step is `k0_pay6` of the two accumulators as
  that step has just updated them. Each store covers its whole buffer, so what the buffer holds afterwards is the last
  value stored, and a load after a store reads the stored value.
-/
import proofs.«121783_j42004780155257_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

/-- Every load and store of the body is at offset (0, 0). -/
theorem hz : (![0, 0] : Fin 2 → Nat) = fun _ => 0 := funext fun a => by fin_cases a <;> rfl

/-- The first step leaves in the column-sum accumulator the block's column sums added to the zeros it has just stored
    there (the load between the two stores reads those zeros back). -/
theorem colAcc_first (c : Dev nD) (i : grid0.Coords) (a1 : Memref sig .tc .vmem S4096x256 .f32) (h1 : a1.IsWhole)
    (a2 : Memref sig .tc .vmem S1x1 .f32) (h2 : a2.IsWhole) (a3 : Memref sig .tc .vmem S1x256 .f32) (h3 : a3.IsWhole)
    (a4 : Memref sig .tc .vmem S1x1 .f32) (h4 : a4.IsWhole) (hc0 : cond0_0 i) (hc1 : ¬cond0_1 i)
    (x : Vec F S4096x256 .f32) :
    sout0_A_0 c i a1 h1 a2 h2 a3 h3 a4 h4 hc0 hc1 x = k0_pay4 x (k0_pay1 (F := F)) := by
  unfold sout0_A_0
  rw [View.read_writes_eq_canon _ _ _ (scover0_A_0 c i a1 h1 a2 h2 a3 h3 a4 h4 hc0 hc1 x)]
  unfold kernelRun0_A
  dsimp only
  sl_unfold_words
  rw [View.canon_cons_unit_zero (S := S1x256) hz, View.readCov_unit_zero (S := S1x256) _ hz]
  simp only [View.readAt_eq_ld, h1.read_unread, View.ld_unit_zero (S := S4096x256) hz]

/-- The first step leaves in the sum-of-squares accumulator the block's sum of squares added to the zero it has just
    stored there. -/
theorem sqAcc_first (c : Dev nD) (i : grid0.Coords) (a1 : Memref sig .tc .vmem S4096x256 .f32) (h1 : a1.IsWhole)
    (a2 : Memref sig .tc .vmem S1x1 .f32) (h2 : a2.IsWhole) (a3 : Memref sig .tc .vmem S1x256 .f32) (h3 : a3.IsWhole)
    (a4 : Memref sig .tc .vmem S1x1 .f32) (h4 : a4.IsWhole) (hc0 : cond0_0 i) (hc1 : ¬cond0_1 i)
    (x : Vec F S4096x256 .f32) :
    sout0_A_1 c i a1 h1 a2 h2 a3 h3 a4 h4 hc0 hc1 x = k0_pay5 x (k0_pay2 (F := F)) := by
  unfold sout0_A_1
  rw [View.read_writes_eq_canon _ _ _ (scover0_A_1 c i a1 h1 a2 h2 a3 h3 a4 h4 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S4096x256) hz]

/-- The second step leaves in the column-sum accumulator the block's column sums added to what the step found there. -/
theorem colAcc_next (c : Dev nD) (i : grid0.Coords) (a1 : Memref sig .tc .vmem S4096x256 .f32) (h1 : a1.IsWhole)
    (a2 : Memref sig .tc .vmem S1x1 .f32) (h2 : a2.IsWhole) (a3 : Memref sig .tc .vmem S1x256 .f32) (h3 : a3.IsWhole)
    (a4 : Memref sig .tc .vmem S1x1 .f32) (h4 : a4.IsWhole) (hc0 : ¬cond0_0 i) (hc1 : cond0_1 i)
    (x : Vec F S4096x256 .f32) (s : Vec F S1x256 .f32) (q : Vec F S1x1 .f32) :
    sout0_B_0 c i a1 h1 a2 h2 a3 h3 a4 h4 hc0 hc1 x s q = k0_pay4 x s := by
  unfold sout0_B_0
  rw [View.read_writes_eq_canon _ _ _ (scover0_B_0 c i a1 h1 a2 h2 a3 h3 a4 h4 hc0 hc1 x s q)]
  unfold kernelRun0_B
  dsimp only
  sl_unfold_words
  rw [View.canon_unit_zero hz]
  simp only [View.readAt_eq_ld, h1.read_unread, h3.read_unread, View.ld_unit_zero (S := S4096x256) hz,
    View.ld_unit_zero (S := S1x256) hz]

/-- The second step leaves in the sum-of-squares accumulator the block's sum of squares added to what the step found
    there. -/
theorem sqAcc_next (c : Dev nD) (i : grid0.Coords) (a1 : Memref sig .tc .vmem S4096x256 .f32) (h1 : a1.IsWhole)
    (a2 : Memref sig .tc .vmem S1x1 .f32) (h2 : a2.IsWhole) (a3 : Memref sig .tc .vmem S1x256 .f32) (h3 : a3.IsWhole)
    (a4 : Memref sig .tc .vmem S1x1 .f32) (h4 : a4.IsWhole) (hc0 : ¬cond0_0 i) (hc1 : cond0_1 i)
    (x : Vec F S4096x256 .f32) (s : Vec F S1x256 .f32) (q : Vec F S1x1 .f32) :
    sout0_B_1 c i a1 h1 a2 h2 a3 h3 a4 h4 hc0 hc1 x s q = k0_pay5 x q := by
  unfold sout0_B_1
  rw [View.read_writes_eq_canon _ _ _ (scover0_B_1 c i a1 h1 a2 h2 a3 h3 a4 h4 hc0 hc1 x s q)]
  unfold kernelRun0_B
  dsimp only
  sl_unfold_words
  rw [View.canon_unit_zero hz]
  simp only [View.readAt_eq_ld, h1.read_unread, h4.read_unread, View.ld_unit_zero (S := S4096x256) hz,
    View.ld_unit_zero (S := S1x1) hz]

/-- The second step stores, as the result, the finishing arithmetic of the two accumulators as it has just updated
    them: the loads that feed it come after the two accumulator stores and read the stored values back. -/
theorem result_last (c : Dev nD) (i : grid0.Coords) (a1 : Memref sig .tc .vmem S4096x256 .f32) (h1 : a1.IsWhole)
    (a2 : Memref sig .tc .vmem S1x1 .f32) (h2 : a2.IsWhole) (a3 : Memref sig .tc .vmem S1x256 .f32) (h3 : a3.IsWhole)
    (a4 : Memref sig .tc .vmem S1x1 .f32) (h4 : a4.IsWhole) (hc0 : ¬cond0_0 i) (hc1 : cond0_1 i)
    (x : Vec F S4096x256 .f32) (s : Vec F S1x256 .f32) (q : Vec F S1x1 .f32) :
    out0_B_1 c i a1 h1 a2 h2 a3 h3 a4 h4 hc0 hc1 x s q = k0_pay6 (k0_pay4 x s) (k0_pay5 x q) := by
  unfold out0_B_1
  rw [View.read_writes_eq_canon _ _ _ (cover0_B_1 c i a1 h1 a2 h2 a3 h3 a4 h4 hc0 hc1 x s q)]
  unfold kernelRun0_B
  dsimp only
  sl_unfold_words
  rw [View.canon_unit_zero hz]
  rw [View.readCov_unit_zero (S := S1x256) _ hz, View.readCov_unit_zero (S := S1x1) _ hz]
  simp only [View.readAt_eq_ld, h1.read_unread, h3.read_unread, h4.read_unread, View.ld_unit_zero (S := S4096x256) hz,
    View.ld_unit_zero (S := S1x256) hz, View.ld_unit_zero (S := S1x1) hz]

end Cert.KernelIdeal.Found

end
-- ==== Proof.OffDiagSpec.lean ====
/-
  What both programs compute, as functions of the flattened array of descriptors: 8192 rows (the descriptors)
  of 256 components, read as extended reals.

  For the matrix X with rows x₀ … x₈₁₉₁, the Gram matrix X Xᵀ has entries ⟨xᵢ, xⱼ⟩. The mean of its off-diagonal
  entries is (the sum of all its entries − its trace) / (8192 · 8191); both programs return the absolute value of that.
  The reference sums the Gram matrix entry by entry (`gramSum`); the kernel never forms it, and uses
      ∑ᵢ ∑ⱼ ⟨xᵢ, xⱼ⟩ = ‖∑ᵢ xᵢ‖²                                                        (`colSq`)
  — the sum of all Gram entries is the squared norm of the sum of the rows. The trace is ∑ᵢ ‖xᵢ‖² on both sides
  (`sqSum`). The identity between `gramSum` and `colSq` moves factors across sums, so it holds for matrices of real
  numbers and not for every matrix of extended reals; it is proved in its own module under that hypothesis.
-/
import Idealize.ShloMosaic.PureOps.Ideal
import Idealize.ShloMosaic.Lib.ValueIdx

noncomputable section

open scoped BigOperators

namespace Cert.OffDiag

open Idealize.ShloMosaic Idealize.ShloMosaic.ValueIdx

/-- A matrix of 8192 rows and 256 columns of extended reals, as an array indexed by (row, column). -/
abbrev Mat : Type := (⟨2, ![8192, 256]⟩ : Shape).Idx → EReal

/-- ‖∑ᵢ xᵢ‖²: the squared norm of the sum of all rows — over the columns d, the square of the column's sum. -/
def colSq (X : Mat) : EReal :=
  ∑ d : Fin 256, (∑ i : Fin 8192, X (ix2 i d)) * (∑ i : Fin 8192, X (ix2 i d))

/-- ∑ᵢ ‖xᵢ‖²: the sum of the squares of all entries, row by row (the trace of X Xᵀ). -/
def sqSum (X : Mat) : EReal :=
  ∑ i : Fin 8192, ∑ d : Fin 256, X (ix2 i d) * X (ix2 i d)

/-- ∑ᵢ ∑ⱼ ⟨xᵢ, xⱼ⟩: the sum of all entries of the Gram matrix X Xᵀ. -/
def gramSum (X : Mat) : EReal :=
  ∑ i : Fin 8192, ∑ j : Fin 8192, ∑ k : Fin 256, X (ix2 i k) * X (ix2 j k)

/-- The number of ordered pairs of distinct rows, 8192 · 8191 = 2²⁶ − 2¹³, as the f32 word both programs divide by. -/
abbrev pairs : EReal := Ideal.ofBits .f32 0x4C7FF800#32

/-- |v / (8192 · 8191)|: the last two steps of both programs, the quotient and the absolute value of the extended reals. -/
def meanAbs (v : EReal) : EReal := max (Ideal.div v pairs) (-(Ideal.div v pairs))

/-- The kernel's result: |(‖∑ᵢ xᵢ‖² − ∑ᵢ ‖xᵢ‖²) / (8192 · 8191)|. -/
def kernelVal (X : Mat) : EReal := meanAbs (colSq X - sqSum X)

/-- The reference's result: |(∑ᵢ ∑ⱼ ⟨xᵢ, xⱼ⟩ − ∑ᵢ ‖xᵢ‖²) / (8192 · 8191)|. -/
def refVal (X : Mat) : EReal := meanAbs (gramSum X - sqSum X)

end Cert.OffDiag

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.LibMinReduce.lean ====
/-
  A matrix reduced by a minimum along its rows or along its columns, and summed along its columns, read at the
  reduced index, at the ideal values: the lane minimum of `[a, b]` at row `r` is the fold of `min`, from the value
  the accumulator's word denotes, over the entries `(r, c)` of the row; the sublane minimum at column `c` the same
  fold over the entries `(r, c)` of the column; the sublane sum at column `c` the sum of the column's entries.
  A minimum folded from `⊤` is the infimum. (The lane sum and the row's lifted index are the row-reduction module's.)
-/
import proofs.«121783_j42004780155257_2_alg».proof.Proof.LibRowReduce
import Idealize.ShloMosaic.Lib.ValueIdx
import Idealize.ShloMosaic.PureOps.Ideal.Laws

noncomputable section

namespace Cert.LibMinReduce

open Idealize.ShloMosaic Idealize.ShloMosaic.ValueIdx

/-- Column `c` of `[a, b]` with the row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d
  apply Fin.ext
  match d with
  | ⟨0, _⟩ => rfl
  | ⟨1, _⟩ => rfl

/-- A minimum reduction over one axis, at the ideal values: the fold of `min` from the accumulator's value over that
    axis's coordinates. -/
theorem multiReduction_minimumf_single {s t : Shape} {φ : FTy} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The lane minimum of a matrix at row `r`: the fold of `min` over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun c => src (ix2 r c)) :=
  (multiReduction_minimumf_single src acc h hφ hacc (ix1 r)).trans
    (congrArg ((Finset.univ : Finset (Fin b)).fold min (Ideal.ofBits φ acc)) (funext fun c => congrArg src (Cert.LibRowReduce.lift_row h r c)))

/-- The sublane minimum of a matrix at column `c`: the fold of `min` over the column's entries. -/
theorem colMin_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (Ideal.ofBits φ acc) (fun r => src (ix2 r c)) :=
  (multiReduction_minimumf_single src acc h hφ hacc (ix1 c)).trans
    (congrArg ((Finset.univ : Finset (Fin a)).fold min (Ideal.ofBits φ acc)) (funext fun r => congrArg src (lift_col h c r)))

/-- The sublane sum of a matrix at column `c`: the sum of the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

/-- A minimum folded from the top element is the infimum. -/
theorem fold_min_top {ι : Type} (s : Finset ι) (f : ι → EReal) : s.fold min (⊤ : EReal) f = s.inf f := rfl

end Cert.LibMinReduce

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.StepValue.lean ====
/-
  The arithmetic of one step, entry by entry, on the extended reals.

  The accumulators are a row vector `[1, 256]` (entry `(0, d)`: the running sum of column `d`) and a `[1, 1]` cell (the
  running sum of squares). For a block of 4096 rows:
    · clearing stores 0 in every entry;
    · the new column sum at `d` is the old one plus the sum over the block's rows `r` of the entry `(r, d)`;
    · the new sum of squares is the old one plus the sum over the rows `r` of the sum over the columns `d` of the
      square of the entry `(r, d)` — the squares are first summed along each row, the 4096 row totals then summed;
    · the finishing value is |(∑_d s_d² − q) / (8192 · 8191)| of the column sums `s` and the sum of squares `q`.
  The layout steps between the sums (a vector kept as a row or as a column) only rename positions.
-/
import proofs.«121783_j42004780155257_2_alg».proof.Proof.Gen.KernelIdeal.Skeleton
import proofs.«121783_j42004780155257_2_alg».proof.Proof.OffDiagSpec
import proofs.«121783_j42004780155257_2_alg».proof.Proof.LibRowReduce
import proofs.«121783_j42004780155257_2_alg».proof.Proof.LibMinReduce
import proofs.«121783_j42004780155257_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.StepValue

open Cert.KernelIdeal Cert.KernelIdeal.Gen

/-- Clearing the column sums stores 0 at every column. -/
theorem cleared_row (d : Fin 256) : k0_pay1 (F := Ideal) (ix2 (0 : Fin 1) d) = 0 := by
  unfold k0_pay1
  simp only [shapeCast_self]
  exact Ideal.ofBits_zero_f32

/-- Clearing the sum of squares stores 0. -/
theorem cleared_cell : k0_pay2 (F := Ideal) (ix2 (0 : Fin 1) (0 : Fin 1)) = 0 := by
  unfold k0_pay2
  simp only [shapeCast_self]
  exact Ideal.ofBits_zero_f32

/-- The new column sum at `d`: the old one plus the block's column `d` summed over its rows. -/
theorem colAcc_apply (blk : Vec Ideal S4096x256 .f32) (old : Vec Ideal S1x256 .f32) (d : Fin 256) :
    k0_pay4 blk old (ix2 (0 : Fin 1) d) = old (ix2 (0 : Fin 1) d) + ∑ r : Fin 4096, blk (ix2 r d) := by
  unfold k0_pay4 k0_pay3
  simp only [shapeCast_self]
  refine congrArg (old (ix2 (0 : Fin 1) d) + ·) ?_
  refine (shapeCast_a_1a_apply _ _ (0 : Fin 1) d).trans ?_
  exact Cert.LibMinReduce.colSum_apply blk _ _ _ _ d

/-- The new sum of squares: the old one plus, over the block's rows, each row's sum of squares. -/
theorem sqAcc_apply (blk : Vec Ideal S4096x256 .f32) (old : Vec Ideal S1x1 .f32) :
    k0_pay5 blk old (ix2 (0 : Fin 1) (0 : Fin 1))
      = old (ix2 (0 : Fin 1) (0 : Fin 1)) + ∑ r : Fin 4096, ∑ d : Fin 256, blk (ix2 r d) * blk (ix2 r d) := by
  unfold k0_pay5 k0_pay3
  simp only [shapeCast_self]
  refine congrArg (old (ix2 (0 : Fin 1) (0 : Fin 1)) + ·) ?_
  refine (shapeCast_a_1a_apply _ _ (0 : Fin 1) (0 : Fin 1)).trans ?_
  refine (Cert.LibMinReduce.colSum_apply _ _ _ _ _ (0 : Fin 1)).trans ?_
  refine Finset.sum_congr rfl fun r _ => ?_
  refine (Cert.LibKeepdims.shapeCast_a_a1_apply _ _ r (0 : Fin 1)).trans ?_
  exact Cert.LibRowReduce.rowSum_apply (mulf blk blk) _ _ _ _ r

/-- The finishing value of the column sums `s` and the sum of squares `q`: |(∑_d s_d² − q) / (8192 · 8191)|. -/
theorem finish_apply (s : Vec Ideal S1x256 .f32) (q : Vec Ideal S1x1 .f32) :
    k0_pay6 s q (ix2 (0 : Fin 1) (0 : Fin 1))
      = Cert.OffDiag.meanAbs ((∑ d : Fin 256, s (ix2 (0 : Fin 1) d) * s (ix2 (0 : Fin 1) d)) - q (ix2 (0 : Fin 1) (0 : Fin 1))) := by
  have e : shapeCast S1x1 (multiReduction (F := Ideal) .add [1] S1 (mulf s s) 0x00000000#32 reduces_S1x256_S1 (.inl rfl) rfl)
        shapeCasts_S1_S1x1 (ix2 (0 : Fin 1) (0 : Fin 1)) = ∑ d : Fin 256, s (ix2 (0 : Fin 1) d) * s (ix2 (0 : Fin 1) d) :=
    (shapeCast_a_1a_apply _ _ (0 : Fin 1) (0 : Fin 1)).trans (Cert.LibRowReduce.rowSum_apply (mulf s s) _ _ _ _ (0 : Fin 1))
  exact congrArg (fun v => Cert.OffDiag.meanAbs (v - q (ix2 (0 : Fin 1) (0 : Fin 1)))) e

end Cert.KernelIdeal.StepValue

end
-- ==== Proof.BlockOrder.lean ====
/-
  The kernel's own order of summation, and that it gives the kernel's value.

  The kernel adds the rows in two blocks: rows 0 … 4095, then rows 4096 … 8191, each accumulator starting from 0. A sum
  over the 8192 rows is the sum over the first block plus the sum over the second — sums over a disjoint union — and
  0 is neutral, so the accumulated column sums are the full column sums and the accumulated sum of squares is the full
  one. These are laws of any commutative monoid: they hold for every matrix of extended reals, infinite entries included.
-/
import proofs.«121783_j42004780155257_2_alg».proof.Proof.OffDiagSpec

noncomputable section

open scoped BigOperators

namespace Cert.OffDiag

open Idealize.ShloMosaic Idealize.ShloMosaic.ValueIdx

/-- Row `r` of the first block is row `r` of the matrix. -/
def rowLo (r : Fin 4096) : Fin 8192 := ⟨r.val, by have := r.isLt; omega⟩

/-- Row `r` of the second block is row `4096 + r` of the matrix. -/
def rowHi (r : Fin 4096) : Fin 8192 := ⟨4096 + r.val, by have := r.isLt; omega⟩

/-- A sum over the 8192 rows is the sum over the first block's rows plus the sum over the second block's. -/
theorem sum_rows {M : Type*} [AddCommMonoid M] (f : Fin 8192 → M) :
    ∑ i : Fin 8192, f i = ∑ r : Fin 4096, f (rowLo r) + ∑ r : Fin 4096, f (rowHi r) :=
  Fin.sum_univ_add (a := 4096) (b := 4096) f

/-- What the kernel leaves in the column-sum accumulator at column `d` after both blocks. -/
def colAcc (X : Mat) (d : Fin 256) : EReal :=
  (0 + ∑ r : Fin 4096, X (ix2 (rowLo r) d)) + ∑ r : Fin 4096, X (ix2 (rowHi r) d)

/-- What the kernel leaves in the sum-of-squares accumulator after both blocks. -/
def sqAcc (X : Mat) : EReal :=
  (0 + ∑ r : Fin 4096, ∑ d : Fin 256, X (ix2 (rowLo r) d) * X (ix2 (rowLo r) d))
    + ∑ r : Fin 4096, ∑ d : Fin 256, X (ix2 (rowHi r) d) * X (ix2 (rowHi r) d)

/-- The value the kernel stores at its last step, from the accumulators as it built them. -/
def blockVal (X : Mat) : EReal := meanAbs ((∑ d : Fin 256, colAcc X d * colAcc X d) - sqAcc X)

/-- The accumulated column sum is the column's sum over all rows. -/
theorem colAcc_eq (X : Mat) (d : Fin 256) : colAcc X d = ∑ i : Fin 8192, X (ix2 i d) := by
  unfold colAcc
  rw [zero_add]
  exact (sum_rows fun i => X (ix2 i d)).symm

/-- The accumulated sum of squares is the sum of the squares of all entries. -/
theorem sqAcc_eq (X : Mat) : sqAcc X = sqSum X := by
  unfold sqAcc sqSum
  rw [zero_add]
  exact (sum_rows fun i => ∑ d : Fin 256, X (ix2 i d) * X (ix2 i d)).symm

/-- So the kernel's two-block arithmetic gives |(‖∑ᵢ xᵢ‖² − ∑ᵢ ‖xᵢ‖²) / (8192 · 8191)|. -/
theorem blockVal_eq (X : Mat) : blockVal X = kernelVal X := by
  unfold blockVal kernelVal colSq
  rw [sqAcc_eq]
  simp only [colAcc_eq]

end Cert.OffDiag

end
-- ==== Proof.LibScalarCell.lean ====
/-
  A `[1, 1]` array has a single cell, and recast as a scalar — an array with no axes, which has a single index — it
  reads that cell: a recast keeps the row-major order of the entries, and here there is only one entry on each side.
-/
import Idealize.ShloMosaic.Lib.ValueIdx

noncomputable section

namespace Cert.LibScalarCell

open Idealize.ShloMosaic Idealize.ShloMosaic.ValueIdx

/-- Every index of a `[1, 1]` array is `(0, 0)`. -/
theorem idx_cell (k : (⟨2, ![1, 1]⟩ : Shape).Idx) : k = ix2 (0 : Fin 1) (0 : Fin 1) :=
  (eq_ix2 k).trans (congrArg₂ ix2 (Subsingleton.elim (α := Fin 1) _ _) (Subsingleton.elim (α := Fin 1) _ _))

/-- A `[1, 1]` array recast as a scalar reads, at the scalar's one index, the array's cell `(0, 0)`. -/
theorem shapeCast_cell_scalar {α : Type} (x : (⟨2, ![1, 1]⟩ : Shape).Idx → α)
    (h : (⟨2, ![1, 1]⟩ : Shape).ShapeCasts ⟨0, ![]⟩) :
    shapeCast (⟨0, ![]⟩ : Shape) x h = fun _ => x (ix2 (0 : Fin 1) (0 : Fin 1)) := by
  funext j
  unfold shapeCast
  exact congrArg x (idx_cell _)

end Cert.LibScalarCell

end
-- ==== Proof.KernelRun.lean ====
/-
  The kernel's run, read as a value.

  The grid has two points. After the first, the accumulators hold the first block's column sums and sum of squares
  (added to the zeros just stored); the output is not touched and nothing is written back. After the second, they
  hold both blocks' contributions and the output's one cell holds the finishing value of them; that cell is written
  back once, after the second point, and it is the whole `[1, 1]` result array. The last line of the program recasts
  that array as a scalar. The matrix the kernel streams is the argument recast as `[8192, 256]` by the program's first
  line; block `t` of it is rows `4096 t … 4096 t + 4095`, all 256 columns.
  Read on the extended reals, the finishing value is the two-block form of |(‖∑ᵢ xᵢ‖² − ∑ᵢ ‖xᵢ‖²) / (8192 · 8191)|.
-/
import proofs.«121783_j42004780155257_2_alg».proof.Proof.Gen.KernelIdeal.Frame
import proofs.«121783_j42004780155257_2_alg».proof.Proof.FoundPieces
import proofs.«121783_j42004780155257_2_alg».proof.Proof.StepValue
import proofs.«121783_j42004780155257_2_alg».proof.Proof.BlockOrder
import proofs.«121783_j42004780155257_2_alg».proof.Proof.LibScalarCell
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

/-! ## At any float values: what the result array ends holding -/

section AnyValues

variable {F : FTy → Type} [FloatOps F]
variable (m : (ℓ : Loc nD τ sig) → Buf (Elt F) ℓ) (ρ : Dev nD → PrngReg)

theorem lt0 : 0 < cfg0.N := by rw [show cfg0.N = 2 from N_0]; decide
theorem lt1 : 1 < cfg0.N := by rw [show cfg0.N = 2 from N_0]; decide

/-- At the first point the body clears the accumulators and does not finish; at the second it is the other way round. -/
theorem first_clears : cond0_0 (grid0.coords ⟨0, lt0⟩) := (hcond0_0 ⟨0, lt0⟩).mpr rfl
theorem first_not_last : ¬cond0_1 (grid0.coords ⟨0, lt0⟩) := fun h => absurd ((hcond0_1 ⟨0, lt0⟩).mp h) (by decide)
theorem last_not_first : ¬cond0_0 (grid0.coords ⟨1, lt1⟩) := fun h => absurd ((hcond0_0 ⟨1, lt1⟩).mp h) (by decide)
theorem last_finishes : cond0_1 (grid0.coords ⟨1, lt1⟩) := (hcond0_1 ⟨1, lt1⟩).mpr rfl

/-- The block of 4096 rows the kernel is handed at grid point `t`. -/
def rows (c : Dev nD) (t : Fin cfg0.N) : Vec F S4096x256 .f32 := iblk m c 0 t

/-- After the first point the column-sum accumulator holds the first block's column sums added to zeros. -/
theorem colAcc_after_first (c : Dev nD) :
    (outsAt0 m c 0 lt0).2.1 = k0_pay4 (rows m c ⟨0, lt0⟩) (k0_pay1 (F := F)) :=
  (congrArg (fun p => p.2.1) (outsAt0_A m c ⟨0, lt0⟩ rfl (by decide))).trans
    (Found.colAcc_first c (grid0.coords ⟨0, lt0⟩) (ms0_0 ⟨0, lt0⟩) (hs0_0 ⟨0, lt0⟩) (ms0_1 ⟨0, lt0⟩) (hs0_1 ⟨0, lt0⟩)
      scM0_0 (Memref.isWhole_whole _) scM0_1 (Memref.isWhole_whole _) first_clears first_not_last (iblk m c 0 ⟨0, lt0⟩))

/-- After the first point the sum-of-squares accumulator holds the first block's sum of squares added to zero. -/
theorem sqAcc_after_first (c : Dev nD) :
    (outsAt0 m c 0 lt0).2.2 = k0_pay5 (rows m c ⟨0, lt0⟩) (k0_pay2 (F := F)) :=
  (congrArg (fun p => p.2.2) (outsAt0_A m c ⟨0, lt0⟩ rfl (by decide))).trans
    (Found.sqAcc_first c (grid0.coords ⟨0, lt0⟩) (ms0_0 ⟨0, lt0⟩) (hs0_0 ⟨0, lt0⟩) (ms0_1 ⟨0, lt0⟩) (hs0_1 ⟨0, lt0⟩)
      scM0_0 (Memref.isWhole_whole _) scM0_1 (Memref.isWhole_whole _) first_clears first_not_last (iblk m c 0 ⟨0, lt0⟩))

/-- The finishing value of the accumulators after both blocks, in the order the kernel adds them. -/
def result (c : Dev nD) : Vec F S1x1 .f32 :=
  k0_pay6 (k0_pay4 (rows m c ⟨1, lt1⟩) (k0_pay4 (rows m c ⟨0, lt0⟩) (k0_pay1 (F := F))))
    (k0_pay5 (rows m c ⟨1, lt1⟩) (k0_pay5 (rows m c ⟨0, lt0⟩) (k0_pay2 (F := F))))

/-- After the second point the output's staging cell holds that value: the second point finds in the accumulators
    what the first left, adds its block, and stores the finishing value. -/
theorem out_after_last (c : Dev nD) : (outsAt0 m c 1 lt1).1 = result m c := by
  have hstep : (outsAt0 m c 1 lt1).1
      = out0_B_1 c (grid0.coords ⟨1, lt1⟩) (ms0_0 ⟨1, lt1⟩) (hs0_0 ⟨1, lt1⟩) (ms0_1 ⟨1, lt1⟩) (hs0_1 ⟨1, lt1⟩)
          scM0_0 (Memref.isWhole_whole _) scM0_1 (Memref.isWhole_whole _) last_not_first last_finishes (iblk m c 0 ⟨1, lt1⟩)
          (outsAt0 m c 0 lt0).2.1 (outsAt0 m c 0 lt0).2.2 :=
    congrArg (fun p => p.1) (outsAt0_B m c ⟨1, lt1⟩ (by decide) rfl)
  refine hstep.trans ?_
  refine (Found.result_last c (grid0.coords ⟨1, lt1⟩) (ms0_0 ⟨1, lt1⟩) (hs0_0 ⟨1, lt1⟩) (ms0_1 ⟨1, lt1⟩) (hs0_1 ⟨1, lt1⟩)
      scM0_0 (Memref.isWhole_whole _) scM0_1 (Memref.isWhole_whole _) last_not_first last_finishes (iblk m c 0 ⟨1, lt1⟩)
      (outsAt0 m c 0 lt0).2.1 (outsAt0 m c 0 lt0).2.2).trans ?_
  exact congrArg₂ k0_pay6 (congrArg (k0_pay4 (rows m c ⟨1, lt1⟩)) (colAcc_after_first m c))
    (congrArg (k0_pay5 (rows m c ⟨1, lt1⟩)) (sqAcc_after_first m c))

/-- The result as contents of the `[1, 1]` result array. -/
abbrev resultArr (c : Dev nD) : Buf (Elt F) ((c : Thread nD τ).loc main_v1) := result m c

/-- The one write-back, after the second point, writes it: the array's only block, read through zero offsets, is the
    array. -/
theorem flushed_eq (c : Dev nD) (t : Fin cfg0.N) (hf : (cfg0.win 1).flush t = true) :
    (dats m 0 c).flushed 1 t = ((cfg0.win 1).blk t).view.read (Elt F) (resultArr m c) := by
  have hN : cfg0.N = 2 := N_0
  have h1 : t.val = 1 := by have := (flush0_1 t).mp hf; have := t.isLt; omega
  obtain rfl : t = ⟨1, lt1⟩ := Fin.ext h1
  show (cfg0.win 1).cut (grid0.coords ⟨1, lt1⟩) ((dats m 0 c).after 1 ⟨1, lt1⟩) = _
  rw [after0_1]
  show (cfg0.win 1).cut (grid0.coords ⟨1, lt1⟩) ((outsAt0 m c 1 lt1).1) = _
  rw [out_after_last]
  have hz' : (fun a => win0_1.index ⟨1, lt1⟩ a * main_v1.ty.shape.size a) = fun _ => 0 :=
    funext fun a => by fin_cases a <;> decide
  exact (Memref.read_access_unit_zero (Elt F) main_v1 hz' (fun a => by rw [congrFun hz' a]; simp) (resultArr m c)).symm

/-- So the result array ends holding the finishing value: the second point's block is the whole array. -/
theorem final_out (c : Dev nD) : (dats m 0 c).arrAt 1 cfg0.N = resultArr m c :=
  (dats m 0 c).arrAt_eq_of_cover 1 (resultArr m c) (flushed_eq m c) fun i =>
    ⟨⟨1, lt1⟩, (flush0_1 ⟨1, lt1⟩).mpr rfl, by
      show i ∈ ((View.whole main_v1).slice (win0_1.rect ⟨1, lt1⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index ⟨1, lt1⟩ 0 * win0_1.size 0 ≤ (i 0 : Nat)
          ∧ (i 0 : Nat) < win0_1.index ⟨1, lt1⟩ 0 * win0_1.size 0 + win0_1.xsize (grid0.coords ⟨1, lt1⟩) 0
        rw [show win0_1.index ⟨1, lt1⟩ 0 * win0_1.size 0 = 0 from by decide +kernel,
          show win0_1.xsize (grid0.coords ⟨1, lt1⟩) 0 = 1 from by decide +kernel]
        omega
      | ⟨1, _⟩ =>
        show win0_1.index ⟨1, lt1⟩ 1 * win0_1.size 1 ≤ (i 1 : Nat)
          ∧ (i 1 : Nat) < win0_1.index ⟨1, lt1⟩ 1 * win0_1.size 1 + win0_1.xsize (grid0.coords ⟨1, lt1⟩) 1
        rw [show win0_1.index ⟨1, lt1⟩ 1 * win0_1.size 1 = 0 from by decide +kernel,
          show win0_1.xsize (grid0.coords ⟨1, lt1⟩) 1 = 1 from by decide +kernel]
        omega⟩

/-- The program's last line recasts the result array as a scalar. -/
theorem tail_value (c : Dev nD) :
    Pipeline.afterTail₀ cfgs (dats m) 0 (V0 m) [hostOps1] c main_v2 = shapeCast S_ (resultArr m c) shapeCasts_S1x1_S_ := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 1))
      = resultArr m c :=
    (Pipeline.withArrays_arr spec0 launch0.win.arr_inj c (V0 m c) (fun w => (dats m 0 c).arrAt w cfg0.N) 1).trans (final_out m c)
  funext i
  exact congrArg (fun x => shapeCast S_ x shapeCasts_S1x1_S_ i) e

/-- The run, read: the scalar result at the recast finishing value, the argument unchanged. -/
theorem run : θ_run defs (onTc (τ := τ) (main (F := F))) ⟨m, fun _ => 0, ρ⟩ fun r => ∀ c : Dev nD,
      r.2.mem ((c : Thread nD τ).loc main_v2) = shapeCast S_ (resultArr m c) shapeCasts_S1x1_S_
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_value m c),
        ((h c).2 main_arg0 (Pipeline.mem_restRefs_of main_arg0 (by decide) (by decide))).trans (W_main_arg0 m (dats m) c)⟩)
    (run_main m ρ)

end AnyValues

/-! ## On the extended reals: the finishing value is the kernel's value of the flattened argument -/

section Reals

variable (m : (ℓ : Loc nD τ sig) → Buf (Elt Ideal) ℓ) (ρ : Dev nD → PrngReg)

/-- The matrix the kernel streams: the `[8192, 256]` array as the region finds it. -/
def mat (c : Dev nD) : Cert.OffDiag.Mat := V m c main_v0

/-- Entry `(r, d)` of the first block is entry `(r, d)` of the matrix: the block starts at row 0 and spans every column. -/
theorem rows_first (c : Dev nD) (r : Fin 4096) (d : Fin 256) :
    rows m c ⟨0, lt0⟩ (ix2 r d) = mat m c (ix2 (Cert.OffDiag.rowLo r) d) := by
  have hi : win0_0.index ⟨0, lt0⟩ 0 = 0 ∧ win0_0.index ⟨0, lt0⟩ 1 = 0 := by decide
  unfold rows iblk mat
  rw [View.read_apply]
  refine congrArg (V m c main_v0) ?_
  funext a
  apply Fin.ext
  match a with
  | ⟨0, _⟩ => show win0_0.index ⟨0, lt0⟩ 0 * 4096 + 1 * r.val = r.val; rw [hi.1]; omega
  | ⟨1, _⟩ => show win0_0.index ⟨0, lt0⟩ 1 * 256 + 1 * d.val = d.val; rw [hi.2]; omega

/-- Entry `(r, d)` of the second block is entry `(4096 + r, d)` of the matrix: the block starts at row 4096. -/
theorem rows_second (c : Dev nD) (r : Fin 4096) (d : Fin 256) :
    rows m c ⟨1, lt1⟩ (ix2 r d) = mat m c (ix2 (Cert.OffDiag.rowHi r) d) := by
  have hi : win0_0.index ⟨1, lt1⟩ 0 = 1 ∧ win0_0.index ⟨1, lt1⟩ 1 = 0 := by decide
  unfold rows iblk mat
  rw [View.read_apply]
  refine congrArg (V m c main_v0) ?_
  funext a
  apply Fin.ext
  match a with
  | ⟨0, _⟩ => show win0_0.index ⟨1, lt1⟩ 0 * 4096 + 1 * r.val = 4096 + r.val; rw [hi.1]; omega
  | ⟨1, _⟩ => show win0_0.index ⟨1, lt1⟩ 1 * 256 + 1 * d.val = d.val; rw [hi.2]; omega

/-- The finishing value, at the result's one cell, is the two-block form of the kernel's value of the matrix:
    each accumulator read entry by entry, each block's entry named as the matrix's. -/
theorem result_eq (c : Dev nD) :
    result m c (ix2 (0 : Fin 1) (0 : Fin 1)) = Cert.OffDiag.blockVal (mat m c) := by
  have hcol : ∀ d : Fin 256,
      k0_pay4 (rows m c ⟨1, lt1⟩) (k0_pay4 (rows m c ⟨0, lt0⟩) (k0_pay1 (F := Ideal))) (ix2 (0 : Fin 1) d)
        = Cert.OffDiag.colAcc (mat m c) d := fun d => by
    unfold Cert.OffDiag.colAcc
    refine (StepValue.colAcc_apply (rows m c ⟨1, lt1⟩) _ d).trans ?_
    refine congrArg₂ (· + ·) ?_ (Finset.sum_congr rfl fun r _ => rows_second m c r d)
    refine (StepValue.colAcc_apply (rows m c ⟨0, lt0⟩) _ d).trans ?_
    exact congrArg₂ (· + ·) (StepValue.cleared_row d) (Finset.sum_congr rfl fun r _ => rows_first m c r d)
  have hsq : k0_pay5 (rows m c ⟨1, lt1⟩) (k0_pay5 (rows m c ⟨0, lt0⟩) (k0_pay2 (F := Ideal))) (ix2 (0 : Fin 1) (0 : Fin 1))
        = Cert.OffDiag.sqAcc (mat m c) := by
    unfold Cert.OffDiag.sqAcc
    refine (StepValue.sqAcc_apply (rows m c ⟨1, lt1⟩) _).trans ?_
    refine congrArg₂ (· + ·) ?_
      (Finset.sum_congr rfl fun r _ => Finset.sum_congr rfl fun d _ => by rw [rows_second m c r d])
    refine (StepValue.sqAcc_apply (rows m c ⟨0, lt0⟩) _).trans ?_
    exact congrArg₂ (· + ·) StepValue.cleared_cell
      (Finset.sum_congr rfl fun r _ => Finset.sum_congr rfl fun d _ => by rw [rows_first m c r d])
  unfold result Cert.OffDiag.blockVal
  refine (StepValue.finish_apply _ _).trans ?_
  refine congrArg Cert.OffDiag.meanAbs ?_
  exact congrArg₂ (· - ·) (Finset.sum_congr rfl fun d _ => by rw [hcol d]) hsq

/-- The matrix the region finds is the argument recast as `[8192, 256]` by the program's first line. -/
theorem mat_eq (c : Dev nD) :
    mat m c = shapeCast S8192x256 (m ((c : Thread nD τ).loc main_arg0)) shapeCasts_S16x512x256_S8192x256 := by
  unfold mat
  show StableHlo.after hostOps0 (fun b => m (c, b)) (Proc.devRef .tc main_v0) = _
  after_results
  rfl

/-- Recast as a scalar, the `[1, 1]` result reads its one cell. -/
theorem scalar_eq (x : Vec Ideal S1x1 .f32) :
    shapeCast S_ x shapeCasts_S1x1_S_ = fun _ => x (ix2 (0 : Fin 1) (0 : Fin 1)) :=
  Cert.LibScalarCell.shapeCast_cell_scalar x shapeCasts_S1x1_S_

/-- The kernel's run on the extended reals: the scalar result is |(‖∑ᵢ xᵢ‖² − ∑ᵢ ‖xᵢ‖²) / (8192 · 8191)| of the
    argument read as 8192 rows of 256 entries, and the argument is unchanged. -/
theorem run_val : θ_run (defs (F := Ideal)) (onTc (τ := τ) (main (F := Ideal))) ⟨m, fun _ => 0, ρ⟩ fun r => ∀ c : Dev nD,
      r.2.mem ((c : Thread nD τ).loc main_v2)
        = (fun _ => Cert.OffDiag.kernelVal
            (shapeCast S8192x256 (m ((c : Thread nD τ).loc main_arg0)) shapeCasts_S16x512x256_S8192x256))
      ∧ r.2.mem ((c : Thread nD τ).loc main_arg0) = m ((c : Thread nD τ).loc main_arg0) :=
  (θ_run defs _ _).mono (fun _ h c => ⟨(h c).1.trans ((scalar_eq (resultArr m c)).trans (funext fun _ =>
      (result_eq m c).trans ((Cert.OffDiag.blockVal_eq (mat m c)).trans (congrArg Cert.OffDiag.kernelVal (mat_eq m c))))),
    (h c).2⟩) (run m ρ)

end Reals

end Cert.KernelIdeal.RunValue

end
-- ==== Proof.RefTerm.lean ====
/-
  The reference, as one function of the flattened matrix X (8192 rows of 256 components): the operations of its
  program composed, in the program's own order and spelling, with nothing evaluated.

  The reference forms the Gram matrix G = X Xᵀ (a matrix product of X with its transpose), sums all of G's entries,
  sums G's diagonal (it keeps the entries where the row number equals the column number and replaces the others by
  zero, then sums everything), subtracts the second sum from the first, divides by the number of ordered pairs of
  distinct rows and takes the absolute value.
-/
import proofs.«121783_j42004780155257_2_alg».proof.Proof.Gen.ReferenceIdeal

noncomputable section

namespace Cert.ReferenceIdeal.RefValue

open Cert.ReferenceIdeal Idealize.ShloMosaic
open Facts₀ Facts

variable {F : FTy → Type} [FloatOps F] [Facts]

/-- The Gram matrix X Xᵀ: the product of X with its transpose, contracting the 256 components. -/
def gram (X : FVec F S8192x256 .f32) : FVec F S8192x8192 .f32 :=
  Host.dotGeneral dot_S8192x256_S256x8192_S8192x8192_1_0_0_1_n_n none X
    (transpose S256x8192 [1, 0] X transposes_S8192x256_S256x8192_1_0)

/-- The diagonal's indicator: at (i, j), the bit "the row number plus zero equals the column number",
    the two numbers as 32-bit words. -/
def diagMask : IVec S8192x8192 1 :=
  cmpi .eq (addi (iotaInDim S8192x8192 32 0) (broadcastInDim S8192x8192 ![] bcast_S_S8192x8192 (constantI S_ 32 0#32)))
    (iotaInDim S8192x8192 32 1)

/-- The sum of all entries of a square array, starting from zero. -/
def total (G : FVec F S8192x8192 .f32) : FVec F S_ .f32 :=
  Host.reduceAdd G (constant S_ .f32 0x00000000#32) reducesTo_S8192x8192_S_d0_1 h_S_

/-- A square array with everything off the diagonal replaced by zero. -/
def diagOnly (G : FVec F S8192x8192 .f32) : FVec F S8192x8192 .f32 :=
  select diagMask G (broadcastInDim S8192x8192 ![] bcast_S_S8192x8192 (constant S_ .f32 0x00000000#32))

/-- The whole reference: |(sum of G − sum of G's diagonal) / (8192 · 8191)| for G = X Xᵀ. -/
def refTerm (X : FVec F S8192x256 .f32) : FVec F S_ .f32 :=
  Host.absf (Host.divf (subf (total (gram X)) (total (diagOnly (gram X)))) (constant S_ .f32 0x4C7FF800#32))

end Cert.ReferenceIdeal.RefValue

end
-- ==== Proof.RefRun.lean ====
/-
  The reference's run. Its program is a straight line of twenty array operations once the two functions it calls
  (the trace, and inside it the selection of the diagonal) are opened at their call sites; every execution of a
  straight line terminates with each buffer holding its operation's value of the operands' buffers. Composed over the
  argument, the result buffer holds the reference's one function (`refTerm`) of the flattened argument, and the
  argument is left as it was.
-/
import proofs.«121783_j42004780155257_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-- The program's twenty operations, in order: the flattening, the transpose, the matrix product, the first total;
    the trace's eleven (two coordinate arrays, the zero word and its splat, their sum, the comparison, the zero and
    its splat, the selection, the zero, the second total); the difference, the divisor, the quotient, the absolute
    value. -/
abbrev ops : List (HloOp τ sig (Elt F)) :=
  [ reshape main_arg0 main_v0 rfl shapeCasts_S16x512x256_S8192x256,
    unary main_v0 main_v1 ((transpose S256x8192 [1, 0] · transposes_S8192x256_S256x8192_1_0) : (⟨S8192x256, .f32⟩ : BufTy).Contents (Elt F) → (⟨S256x8192, .f32⟩ : BufTy).Contents (Elt F)),
    binary main_v0 main_v1 main_v2 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x00000000#32),
    binary main_v2 main_cst main_v3 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    TRef.nullary main_call0.v0 (iotaInDim S8192x8192 32 0),
    TRef.nullary main_call0.v1 (iotaInDim S8192x8192 32 1),
    TRef.nullary main_call0.c (constantI S_ 32 0#32),
    TRef.unary main_call0.c main_call0.v2 (broadcastInDim S8192x8192 ![] bcast_S_S8192x8192),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S8192x8192 ![] bcast_S_S8192x8192),
    TRef.ternary main_call0.v4 (.of main_v2) main_call0.v5 main_call0.call0.v0 select,
    TRef.nullary main_call0.cst_0 (constant S_ .f32 0x00000000#32),
    TRef.binary main_call0.call0.v0 main_call0.cst_0 main_call0.v7 (fun x v => Host.reduceAdd x v reducesTo_S8192x8192_S_d0_1 h_S_),
    binary main_v3 main_v4 main_v5 (subf : (⟨S_, .f32⟩ : BufTy).Contents (Elt F) → (⟨S_, .f32⟩ : BufTy).Contents (Elt F) → (⟨S_, .f32⟩ : BufTy).Contents (Elt F)),
    nullary main_cst_0 (constant S_ .f32 0x4C7FF800#32),
    binary main_v5 main_cst_0 main_v6 (Host.divf : (⟨S_, .f32⟩ : BufTy).Contents (Elt F) → (⟨S_, .f32⟩ : BufTy).Contents (Elt F) → (⟨S_, .f32⟩ : BufTy).Contents (Elt F)),
    unary main_v6 main_v7 (Host.absf : (⟨S_, .f32⟩ : BufTy).Contents (Elt F) → (⟨S_, .f32⟩ : BufTy).Contents (Elt F)) ]

set_option maxRecDepth 1024 in
/-- The program is that straight line: the two called functions opened at their calls, the sequencing reassociated. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., binary_bufs_sub .., nullary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    binary_bufs_sub .., nullary_bufs_sub .., binary_bufs_sub .., unary_bufs_sub ..⟩

/-- The fold at the result buffer: each operation's value of its operands, composed back to the argument, is the
    reference's one function of the flattened argument. -/
theorem out_eq (V : Valuation τ sig (Elt F)) :
    after ops V (main_v7 : DevRef τ sig)
      = refTerm (shapeCast S8192x256 (V (main_arg0 : DevRef τ sig)) shapeCasts_S16x512x256_S8192x256) := by
  unfold refTerm total diagOnly diagMask gram
  after_results
  rfl

/-- No operation writes the argument's buffer. -/
theorem arg0_eq (V : Valuation τ sig (Elt F)) :
    after ops V (main_arg0 : DevRef τ sig) = V (main_arg0 : DevRef τ sig) := by
  after_results

/-- Every buffer after the run is the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefGram.lean ====
/-
  The Gram matrix at an entry. The matrix product of X (8192 × 256) with its transpose (256 × 8192), read at (i, j),
  is the sum over the 256 components k of X(i,k) · Xᵀ(k,j), and the transpose at (k, j) is X at (j, k): the entry is
  the inner product of row i with row j. Over the extended reals; no finiteness is used.
-/
import proofs.«121783_j42004780155257_2_alg».proof.Proof.RefTerm
import Idealize.ShloMosaic.Lib.StackMember
import Idealize.ShloMosaic.Lib.Pipeline.Value

noncomputable section

open scoped BigOperators

namespace Cert.ReferenceIdeal.RefValue

open Cert.ReferenceIdeal Idealize.ShloMosaic Idealize.ShloMosaic.ValueIdx
open Facts₀ Facts

/-- The transpose of X at (k, j) is X at (j, k). -/
theorem transpose_at (X : FVec Ideal S8192x256 .f32) (k : Fin 256) (j : Fin 8192) :
    transpose S256x8192 [1, 0] X transposes_S8192x256_S256x8192_1_0 (ix2 k j) = X (ix2 j k) :=
  transpose_apply [1, 0] X transposes_S8192x256_S256x8192_1_0 (ix2 k j) (ix2 j k)
    (fun b => by match b with | ⟨0, _⟩ => rfl | ⟨1, _⟩ => rfl)

/-- The Gram matrix at (i, j) is the inner product of rows i and j. -/
theorem gram_apply (X : FVec Ideal S8192x256 .f32) (i j : Fin 8192) :
    gram X (ix2 i j) = ∑ k : Fin 256, X (ix2 i k) * X (ix2 j k) := by
  have h := StackMember.dotGeneral_plain_apply (m := 8192) (n := 8192) (k := 256) none X
    (transpose S256x8192 [1, 0] X transposes_S8192x256_S256x8192_1_0) i j
  refine Eq.trans ?_ (h.trans (Finset.sum_congr rfl fun k _ => by rw [transpose_at]))
  rfl

end Cert.ReferenceIdeal.RefValue

end
-- ==== Proof.RefDiag.lean ====
/-
  The two sums of the reference. The sum of all entries of an 8192 × 8192 array, started from zero, is the double
  sum over rows and columns. The diagonal's indicator at (i, j) compares the 32-bit words of i (plus zero) and of j;
  both numbers are below 2¹³, far below 2³², so the words are equal exactly when i = j. Hence the array with the
  off-diagonal entries replaced by zero is "G(i,j) if i = j, else 0", and its total is the sum of the diagonal
  entries G(i,i) — in any commutative monoid, so nothing is assumed finite.
-/
import proofs.«121783_j42004780155257_2_alg».proof.Proof.RefTerm
import Idealize.ShloMosaic.Lib.IdealHost

noncomputable section

open scoped BigOperators

namespace Cert.ReferenceIdeal.RefValue

open Cert.ReferenceIdeal Idealize.ShloMosaic Idealize.ShloMosaic.ValueIdx
open Facts₀ Facts

/-- Two row numbers below 8192 have equal 32-bit words (the first with zero added) exactly when they are equal. -/
theorem word_beq (i j : Fin 8192) :
    (BitVec.ofNat 32 i.val + 0#32 == BitVec.ofNat 32 j.val) = decide (i = j) := by
  rw [BitVec.add_zero]
  by_cases h : i = j
  · subst h; simp
  · have hne : BitVec.ofNat 32 i.val ≠ BitVec.ofNat 32 j.val := by
      intro e
      have e' := congrArg BitVec.toNat e
      simp only [BitVec.toNat_ofNat] at e'
      have hi := i.isLt
      have hj := j.isLt
      exact h (Fin.ext (by omega))
    simp [h, hne]

/-- The diagonal's indicator at (i, j) is one when i = j and zero otherwise. -/
theorem diagMask_apply (i j : Fin 8192) : diagMask (ix2 i j) = if i = j then 1#1 else 0#1 := by
  unfold diagMask
  show IntOp.cmpi .eq (IntOp.addi (BitVec.ofNat 32 i.val)
      (broadcastInDim S8192x8192 ![] bcast_S_S8192x8192 (constantI S_ 32 0#32) (ix2 i j))) (BitVec.ofNat 32 j.val) = _
  rw [broadcastInDim_scalar_apply]
  show BitVec.ofBool (BitVec.ofNat 32 i.val + 0#32 == BitVec.ofNat 32 j.val) = _
  rw [word_beq]
  by_cases h : i = j
  · rw [if_pos h, decide_eq_true h]; rfl
  · rw [if_neg h, decide_eq_false h]; rfl

/-- The array with everything off the diagonal replaced by zero, at (i, j). -/
theorem diagOnly_apply (G : FVec Ideal S8192x8192 .f32) (i j : Fin 8192) :
    diagOnly G (ix2 i j) = if i = j then G (ix2 i j) else 0 := by
  unfold diagOnly
  rw [select_apply, diagMask_apply, broadcastInDim_scalar_apply, constant_apply, Ideal.ofBits_zero_f32]
  by_cases h : i = j
  · rw [if_pos h, if_pos h, select_one]
  · rw [if_neg h, if_neg h, select_zero]

/-- The total of a square array is the double sum of its entries. -/
theorem total_apply (G : FVec Ideal S8192x8192 .f32) (z : S_.Idx) :
    total G z = ∑ i : Fin 8192, ∑ j : Fin 8192, G (ix2 i j) := by
  unfold total
  rw [hostReduceAdd_apply, Ideal.hostReduceAdd_total _ (fun b => b.elim0), constant_apply, Ideal.ofBits_zero_f32,
    zero_add, sum_idx2]

/-- The total of the diagonal-only array is the sum of the diagonal entries. -/
theorem total_diagOnly (G : FVec Ideal S8192x8192 .f32) (z : S_.Idx) :
    total (diagOnly G) z = ∑ i : Fin 8192, G (ix2 i i) := by
  rw [total_apply]
  refine Finset.sum_congr rfl fun i _ => ?_
  simp only [diagOnly_apply]
  rw [Finset.sum_ite_eq, if_pos (Finset.mem_univ _)]

end Cert.ReferenceIdeal.RefValue

end
-- ==== Proof.RefValue.lean ====
/-
  The reference's value. Reading its one function of the flattened matrix X entry by entry: the first total is the
  sum over all (i, j) of the inner products ⟨xᵢ, xⱼ⟩, the second is the sum over i of ⟨xᵢ, xᵢ⟩, and the last three
  operations are the difference, the quotient by the number of ordered pairs of distinct rows and the absolute value
  of the extended reals. That is the specification's value of the reference, so every execution of the reference ends
  with it in the result buffer, the argument unchanged.
-/
import proofs.«121783_j42004780155257_2_alg».proof.Proof.OffDiagSpec
import proofs.«121783_j42004780155257_2_alg».proof.Proof.RefRun
import proofs.«121783_j42004780155257_2_alg».proof.Proof.RefGram
import proofs.«121783_j42004780155257_2_alg».proof.Proof.RefDiag

noncomputable section

open scoped BigOperators

namespace Cert.ReferenceIdeal.RefValue

open Cert.ReferenceIdeal Idealize.ShloMosaic Idealize.ShloMosaic.TcCoe Idealize.SL.Sem Idealize.ShloMosaic.StableHlo
open Idealize.ShloMosaic.ValueIdx
open Facts₀ Facts

/-- The reference's function of X, at its one index, is |(∑ᵢ ∑ⱼ ⟨xᵢ, xⱼ⟩ − ∑ᵢ ⟨xᵢ, xᵢ⟩) / (8192 · 8191)|. -/
theorem refTerm_apply (X : FVec Ideal S8192x256 .f32) (z : S_.Idx) : refTerm X z = Cert.OffDiag.refVal X := by
  unfold refTerm
  show FloatOps.hostAbsf (FloatOps.hostDivf (FloatOps.subf (total (gram X) z) (total (diagOnly (gram X)) z))
    (Ideal.ofBits .f32 0x4C7FF800#32)) = _
  rw [total_apply, total_diagOnly]
  simp only [gram_apply]
  rw [Ideal.hostAbsf_def, Ideal.absf_def, Ideal.hostDivf_def, Ideal.subf_def]
  unfold Cert.OffDiag.refVal Cert.OffDiag.meanAbs Cert.OffDiag.gramSum Cert.OffDiag.sqSum
  rfl

/-- Every weakly fair execution of the reference terminates with the specification's value of the flattened argument
    in its result buffer, and the argument as it was. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v7)
          = (fun _ => Cert.OffDiag.refVal (shapeCast S8192x256 (m ((c.tc : Thread nD τ).loc main_arg0)) Facts₀.shapeCasts_S16x512x256_S8192x256))
      ∧ r.2.mem ((c.tc : Thread nD τ).loc main_arg0) = m ((c.tc : Thread nD τ).loc main_arg0) :=
  (θ_run defs _ _).mono (fun _ h c =>
      ⟨(h c main_v7).trans ((out_eq _).trans (funext fun z => refTerm_apply _ z)),
       (h c main_arg0).trans (arg0_eq _)⟩)
    (run_ops m ρ)

end Cert.ReferenceIdeal.RefValue

end
-- ==== Proof.LibTripleProduct.lean ====
/-
  Associativity of a triple matrix product, on the extended reals, for real entries.

  For a row `a` indexed by `J`, a matrix `b` indexed by `J × K` and a column `w` indexed by `K`,
  `∑ k, (∑ j, a j * b j k) * w k = ∑ j, a j * (∑ k, b j k * w k)`.
  On the extended reals the identity needs the entries to be real numbers: distributing a factor over a sum
  fails when a term is infinite (`⊤ * (1 + -1) = 0` while `⊤ * 1 + ⊤ * -1 = ⊤ + ⊥ = ⊥`). With real entries
  every product and every sum is the coercion of the real one, and the identity is the real one: expand both
  sides to the double sum of `a j * b j k * w k` and exchange the order of summation.
-/
import Mathlib.Data.EReal.Operations
import Mathlib.Algebra.BigOperators.Ring.Finset
import Mathlib.Algebra.BigOperators.Group.Finset.Sigma
import Mathlib.Tactic.Ring

namespace Cert.TripleProduct

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- `(a · b) · w = a · (b · w)` for a real row `a`, a real matrix `b` and a real column `w`, read in the
    extended reals. -/
theorem assoc_coe {J K : Type*} [Fintype J] [Fintype K] (a : J → ℝ) (b : J → K → ℝ) (w : K → ℝ) :
    ∑ k, (∑ j, (a j : EReal) * (b j k : EReal)) * (w k : EReal)
      = ∑ j, (a j : EReal) * ∑ k, (b j k : EReal) * (w k : EReal) := by
  simp only [← EReal.coe_mul, ← coe_sum]
  congr 1
  simp only [Finset.sum_mul, Finset.mul_sum]
  rw [Finset.sum_comm]
  exact Finset.sum_congr rfl fun j _ => Finset.sum_congr rfl fun k _ => by ring

/-- The same identity for extended-real entries that are known to be real numbers. -/
theorem assoc_of_real {J K : Type*} [Fintype J] [Fintype K] (a : J → EReal) (b : J → K → EReal) (w : K → EReal)
    (ha : ∀ j, ∃ r : ℝ, a j = r) (hb : ∀ j k, ∃ r : ℝ, b j k = r) (hw : ∀ k, ∃ r : ℝ, w k = r) :
    ∑ k, (∑ j, a j * b j k) * w k = ∑ j, a j * ∑ k, b j k * w k := by
  choose a' ha' using ha
  choose b' hb' using hb
  choose w' hw' using hw
  simp only [ha', hb', hw']
  exact assoc_coe a' b' w'

end Cert.TripleProduct
-- ==== Proof.OffDiagAlgebra.lean ====
/-
  The sum of all entries of a Gram matrix is the squared norm of the sum of the rows.

  For a matrix with rows x₀ … x₈₁₉₁ the Gram matrix has entries ⟨xᵢ, xⱼ⟩ = ∑ₖ xᵢₖ xⱼₖ. Summing over all i and j and
  exchanging the order of summation so that the column index k is outermost gives
      ∑ᵢ ∑ⱼ ∑ₖ xᵢₖ xⱼₖ = ∑ₖ ∑ᵢ ∑ⱼ xᵢₖ xⱼₖ = ∑ₖ (∑ᵢ xᵢₖ) (∑ⱼ xⱼₖ),
  the last step being the product of two finite sums written out. That step distributes a factor over a sum, which is
  not valid for every family of extended reals (⊤ · (1 + −1) = 0 while ⊤ · 1 + ⊤ · (−1) = ⊤ + ⊥ = ⊥), so the identity
  is proved for real numbers, over arbitrary finite index types, and carried to the extended reals for entries that
  are real numbers: there every product and every finite sum is the coercion of the real one.
-/
import proofs.«121783_j42004780155257_2_alg».proof.Proof.OffDiagSpec
import proofs.«121783_j42004780155257_2_alg».proof.Proof.LibTripleProduct

noncomputable section

open scoped BigOperators

namespace Cert.OffDiag

open Idealize.ShloMosaic Idealize.ShloMosaic.ValueIdx

/-- Over the reals, for rows indexed by `ι` and columns by `κ`: the sum of all Gram entries is the sum over the
    columns of the square of the column's sum. -/
theorem gram_real {ι κ : Type*} [Fintype ι] [Fintype κ] (f : ι → κ → ℝ) :
    ∑ i, ∑ j, ∑ k, f i k * f j k = ∑ k, (∑ i, f i k) * (∑ j, f j k) :=
  calc ∑ i, ∑ j, ∑ k, f i k * f j k
      = ∑ i, ∑ k, ∑ j, f i k * f j k := Finset.sum_congr rfl fun _ _ => Finset.sum_comm
    _ = ∑ k, ∑ i, ∑ j, f i k * f j k := Finset.sum_comm
    _ = ∑ k, (∑ i, f i k) * (∑ j, f j k) :=
        Finset.sum_congr rfl fun _ _ => (Finset.sum_mul_sum _ _ _ _).symm

/-- The same identity in the extended reals, for entries that are coercions of real numbers. -/
theorem gram_coe {ι κ : Type*} [Fintype ι] [Fintype κ] (f : ι → κ → ℝ) :
    ∑ i, ∑ j, ∑ k, (f i k : EReal) * (f j k : EReal)
      = ∑ k, (∑ i, (f i k : EReal)) * (∑ j, (f j k : EReal)) := by
  simp only [← EReal.coe_mul, ← TripleProduct.coe_sum]
  exact congrArg _ (gram_real f)

/-- For a matrix whose entries are real numbers, the sum of all entries of X Xᵀ is ‖∑ᵢ xᵢ‖². -/
theorem gramSum_eq_colSq (X : Mat) (hfin : ∀ j, ∃ r : ℝ, X j = (r : EReal)) : gramSum X = colSq X := by
  choose x hx using hfin
  unfold gramSum colSq
  simp only [hx]
  exact gram_coe (fun (i : Fin 8192) (k : Fin 256) => x (ix2 i k))

/-- Hence the two results agree: they differ only in how the sum of all Gram entries is written. -/
theorem refVal_eq_kernelVal (X : Mat) (hfin : ∀ j, ∃ r : ℝ, X j = (r : EReal)) : refVal X = kernelVal X := by
  unfold refVal kernelVal
  rw [gramSum_eq_colSq X hfin]

end Cert.OffDiag

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.FiniteEntries.lean ====
/-
  From the finiteness test to "every entry is a real number".

  The test takes the absolute value of every entry of the [16, 512, 256] array, compares it with the float word
  0x7F800000 (which is +∞) by "less than", and takes the conjunction of all the comparison bits, starting from 1.
  If the conjunction is 1 then every single bit is 1, so every entry x has |x| < +∞; an extended real whose absolute
  value is below +∞ is neither +∞ nor −∞, hence a real number.

  Reading the array as 8192 rows of 256 entries only re-indexes it (the entry at (row, column) is the entry of the
  original array at the same row-major position), so every entry of the flattened array is a real number too.
-/
import proofs.«121783_j42004780155257_2_alg».proof.Pre_finite_inputs
import proofs.«121783_j42004780155257_2_alg».proof.Proof.Gen.Pre_finite_inputs
import proofs.«121783_j42004780155257_2_alg».proof.Proof.LibFiniteEntry
import Idealize.ShloMosaic.Lib.ReduceAll
import Idealize.ShloMosaic.Lib.ValueIdx

noncomputable section

namespace Cert.OffDiag

open Idealize.ShloMosaic

/-- The shape with no axes has exactly one index. -/
instance subsingleton_scalar_idx : Subsingleton Cert.Pre_finite_inputs.S_.Idx :=
  ⟨fun a b => funext fun d => d.elim0⟩

/-- If the finiteness test answers 1, every entry of the array is a real number. -/
theorem real_of_pre (a : FVec Ideal Cert.Pre_finite_inputs.S16x512x256 .f32)
    (h : Cert.Pre_finite_inputs.fn (F := Ideal) a = fun _ => 1#1) : ∀ i, ∃ r : ℝ, a i = (r : EReal) := by
  intro i
  have h0 := congrFun h ValueIdx.ix0
  dsimp only [Cert.Pre_finite_inputs.fn] at h0
  have hi := Host.reduce_andi_all _ _ _ _ _ h0 i
  exact FiniteEntry.real_of_test (a i) hi

/-- The same for the array read as 8192 rows of 256 entries: a reshape only re-indexes. -/
theorem real_flat (a : FVec Ideal Cert.Pre_finite_inputs.S16x512x256 .f32)
    (h : Cert.Pre_finite_inputs.fn (F := Ideal) a = fun _ => 1#1)
    (hc : (⟨3, ![16, 512, 256]⟩ : Shape).ShapeCasts ⟨2, ![8192, 256]⟩) :
    ∀ j, ∃ r : ℝ, shapeCast (⟨2, ![8192, 256]⟩ : Shape) a hc j = (r : EReal) := by
  intro j
  unfold shapeCast
  exact real_of_pre a h _

end Cert.OffDiag

end
-- ==== Proof.lean ====
/-
  The certificate: the kernel, its idealization and the reference each run to the end leaving the argument as it was;
  the idealization changed nothing in the kernel's text; and, on the extended reals, the idealized kernel and the
  idealized reference return the same number whenever every entry of the argument is finite.

  Both programs first read the argument, an array `[16, 512, 256]`, as a matrix X of 8192 rows x₀ … x₈₁₉₁ with 256
  components each. The reference forms the Gram matrix X Xᵀ, whose entries are the inner products ⟨xᵢ, xⱼ⟩, and
  returns |(sum of all its entries − its trace) / (8192 · 8191)|: the absolute value of the mean of the off-diagonal
  entries. The kernel never forms the Gram matrix. It visits the rows in two blocks of 4096, accumulating the vector
  of column sums ∑ᵢ xᵢ and the number ∑ᵢ ‖xᵢ‖², and at the end returns |(‖∑ᵢ xᵢ‖² − ∑ᵢ ‖xᵢ‖²) / (8192 · 8191)|.
  The trace of X Xᵀ is ∑ᵢ ‖xᵢ‖² on both sides. The two results therefore agree as soon as
      ∑ᵢ ∑ⱼ ⟨xᵢ, xⱼ⟩ = ‖∑ᵢ xᵢ‖²,
  which is the bilinearity of the inner product. Expanding the right side distributes products over sums, and that
  is a law of the real numbers but not of the extended reals, where +∞ and −∞ may meet in a sum; this is the one
  place the precondition is used: it makes every entry of X a real number.

  The pieces, each in its own module: what the kernel's run leaves in its result, and that it is the kernel's formula
  of X (the run of the kernel); the reference's run and that its result is the reference's formula of X; that finite
  inputs are real numbers; and the identity above for matrices of real numbers.
-/
import proofs.«121783_j42004780155257_2_alg».proof.Defs
import proofs.«121783_j42004780155257_2_alg».proof.Proof.Gen.Kernel
import proofs.«121783_j42004780155257_2_alg».proof.Proof.Gen.Kernel.Skeleton
import proofs.«121783_j42004780155257_2_alg».proof.Proof.Gen.Kernel.Launch
import proofs.«121783_j42004780155257_2_alg».proof.Proof.Gen.Kernel.Points
import proofs.«121783_j42004780155257_2_alg».proof.Proof.Gen.Kernel.Frame
import proofs.«121783_j42004780155257_2_alg».proof.Proof.Gen.KernelIdeal
import proofs.«121783_j42004780155257_2_alg».proof.Proof.Gen.KernelIdeal.Skeleton
import proofs.«121783_j42004780155257_2_alg».proof.Proof.Gen.KernelIdeal.Launch
import proofs.«121783_j42004780155257_2_alg».proof.Proof.Gen.KernelIdeal.Points
import proofs.«121783_j42004780155257_2_alg».proof.Proof.Gen.KernelIdeal.Frame
import proofs.«121783_j42004780155257_2_alg».proof.Proof.Gen.ReferenceIdeal
import proofs.«121783_j42004780155257_2_alg».proof.Proof.Gen.Pre_finite_inputs
import proofs.«121783_j42004780155257_2_alg».proof.Proof.KernelRun
import proofs.«121783_j42004780155257_2_alg».proof.Proof.RefValue
import proofs.«121783_j42004780155257_2_alg».proof.Proof.OffDiagAlgebra
import proofs.«121783_j42004780155257_2_alg».proof.Proof.FiniteEntries
import Idealize.ShloMosaic.Adequacy
import Idealize.ShloMosaic.Init

noncomputable section

namespace Cert.Proof

open Idealize.ShloMosaic Idealize.SL.Sem

/-- The kernel as printed runs to the end and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation of the kernel. -/
theorem preserves : Cert.preserves_Kernel_KernelIdeal := trivial

/-- On the extended reals, from arguments that agree and are finite, the kernel's result
    |(‖∑ᵢ xᵢ‖² − ∑ᵢ ‖xᵢ‖²) / (8192 · 8191)| and the reference's |(∑ᵢ ∑ⱼ ⟨xᵢ, xⱼ⟩ − ∑ᵢ ‖xᵢ‖²) / (8192 · 8191)| are one
    number: the entries of X are real numbers, and for those ∑ᵢ ∑ⱼ ⟨xᵢ, xⱼ⟩ = ‖∑ᵢ xᵢ‖². -/
theorem algebraic : Cert.algebraic_KernelIdeal_ReferenceIdeal := by
  intro m ρ m' ρ' hpre hagree
  refine ⟨fun c => fun _ => Cert.OffDiag.kernelVal
      (shapeCast Cert.KernelIdeal.S8192x256 (m ((c.tc : Thread Cert.KernelIdeal.nD Cert.KernelIdeal.τ).loc Cert.KernelIdeal.main_arg0))
        Cert.KernelIdeal.Facts₀.shapeCasts_S16x512x256_S8192x256),
    Cert.KernelIdeal.RunValue.run_val m ρ, ?_⟩
  refine (θ_run Cert.ReferenceIdeal.defs _ _).mono (fun _ h c => ⟨(h c).1.trans ?_, (h c).2⟩)
    (Cert.ReferenceIdeal.RefValue.run m' ρ')
  rw [hagree c]
  funext _
  exact Cert.OffDiag.refVal_eq_kernelVal _ (Cert.OffDiag.real_flat _ (hpre c) _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
